-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S64 .f32) (main_arg11 : FVec F S64 .f32) (main_arg12 : FVec F S64 .f32) (main_arg13 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S128 .f32) (main_arg7 : FVec F S128 .f32) (main_arg8 : FVec F S128 .f32) (main_arg9 : FVec F S128 .f32) (main_arg10 : FVec F S64 .f32) (main_arg11 : FVec F S64 .f32) (main_arg12 : FVec F S64 .f32) (main_arg13 : FVec F S64 .f32) (main_v13 : IVec S_ 1) (main_v16 : IVec S3x128x64 1) : IVec S_ 1 :=
  let main_c_5 : IVec S_ 1 := constantI S_ 1 1#1
  let main_v17 : IVec S_ 1 := (fun x v => Host.reduce IntOp.andi x v reducesTo_S3x128x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S3x128x128 .f32) (main_arg3 : FVec F S128 .f32) (main_arg4 : FVec F S3x128x64 .f32) (main_arg5 : FVec F S64 .f32) (main_arg6 : FVec F S128 .f32) (main_arg7 : FVec F S128 .f32) (main_arg8 : FVec F S128 .f32) (main_arg9 : FVec F S128 .f32) (main_arg10 : FVec F S64 .f32) (main_arg11 : FVec F S64 .f32) (main_arg12 : FVec F S64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x64 .f32 := Host.absf main_arg4
  let main_cst_4 : FVec F S_ .f32 := constant S_ .f32 0x7F800000#32
  let main_v15 : FVec F S3x128x64 .f32 := broadcastInDim S3x128x64 ![] bcast_S_S3x128x64 main_cst_4
  let main_v16 : IVec S3x128x64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x128x128 : Shape := ⟨3, ![1, 128, 128]⟩
abbrev S128x128 : Shape := ⟨2, ![128, 128]⟩
abbrev S1x64 : Shape := ⟨2, ![1, 64]⟩
abbrev S100000x64 : Shape := ⟨2, ![100000, 64]⟩
abbrev S5000x64 : Shape := ⟨2, ![5000, 64]⟩
abbrev S1x128x64 : Shape := ⟨3, ![1, 128, 64]⟩
abbrev S128x64 : Shape := ⟨2, ![128, 64]⟩

abbrev nBuf : Space → Nat
  | .hbm => 139
  | .vmem => 28
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S128, .f32⟩
  | 4 => ⟨S3x128x64, .f32⟩
  | 5 => ⟨S64, .f32⟩
  | 6 => ⟨S128, .f32⟩
  | 7 => ⟨S128, .f32⟩
  | 8 => ⟨S128, .f32⟩
  | 9 => ⟨S128, .f32⟩
  | 10 => ⟨S64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1600000x1, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S100000x128, .f32⟩
  | 97 => ⟨S1600000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S1x64, .f32⟩
  | 6 => ⟨S1x64, .f32⟩
  | 7 => ⟨S1x64, .f32⟩
  | 8 => ⟨S1x64, .f32⟩
  | 9 => ⟨S1x64, .f32⟩
  | 10 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S3x128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S3x128x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_19 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_20 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x64.size a ≤ S3x128x64.size a
  hwx1_3 : ∀ i : grid1.Coords, EltTy.bits .f32 = 32 ∨ (Rect.block (s := S3x128x64) S3x128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v61) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v62) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v63) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v64) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v64) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v96) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v97) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v98) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v99) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S1x128x64 : Shape := ⟨3, ![1, 128, 64]⟩
abbrev S128x64 : Shape := ⟨2, ![128, 64]⟩
abbrev S100000x64 : Shape := ⟨2, ![100000, 64]⟩
abbrev S1x64 : Shape := ⟨2, ![1, 64]⟩

abbrev nBuf : Space → Nat
  | .hbm => 190
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S128, .f32⟩
  | 4 => ⟨S3x128x64, .f32⟩
  | 5 => ⟨S64, .f32⟩
  | 6 => ⟨S128, .f32⟩
  | 7 => ⟨S128, .f32⟩
  | 8 => ⟨S128, .f32⟩
  | 9 => ⟨S128, .f32⟩
  | 10 => ⟨S64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S1x128x128, .f32⟩
  | 56 => ⟨S128x128, .f32⟩
  | 57 => ⟨S100000x128, .f32⟩
  | 58 => ⟨S1600000x1, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S1x128x128, .f32⟩
  | 75 => ⟨S128x128, .f32⟩
  | 76 => ⟨S100000x128, .f32⟩
  | 77 => ⟨S100000x128, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1x128x128, .f32⟩
  | 99 => ⟨S128x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S1x128x64, .f32⟩
  | 125 => ⟨S128x64, .f32⟩
  | 126 => ⟨S100000x64, .f32⟩
  | 127 => ⟨S1600000x1, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S1600000x128, .f32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S1x128x64, .f32⟩
  | 16 => ⟨S128x64, .f32⟩
  | 17 => ⟨S100000x64, .f32⟩
  | 18 => ⟨S100000x64, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S1x128x64, .f32⟩
  | 40 => ⟨S128x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_call1_cst : Ref sig .tc := ⟨.hbm, 121, rfl⟩
abbrev main_call1_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_15 : Ref sig .tc := ⟨.hbm, 128, rfl⟩
abbrev main_v93 : Ref sig .tc := ⟨.hbm, 129, rfl⟩
abbrev main_v94 : Ref sig .tc := ⟨.hbm, 130, rfl⟩
abbrev main_c_16 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_17 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_18 : Ref sig .tc := ⟨.hbm, 148, rfl⟩
abbrev main_v110 : Ref sig .tc := ⟨.hbm, 149, rfl⟩
abbrev main_v111 : Ref sig .tc := ⟨.hbm, 150, rfl⟩
abbrev main_c_19 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_20 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_21 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_22 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result array named.

  The program is a chain of six segments: three stretches of host operations, the first layer's pipelined
  region, one more host stretch, the second layer's region.  The contents of every buffer at each boundary are a
  fold from the launch memory: a host stretch applies its operations, a region leaves each of its output arrays
  at the fold of its grid points' write-backs and every other buffer as it found it.  Every weakly fair
  execution terminates in a memory that agrees with the last boundary's contents on every unscoped buffer; the
  frame claim keeps of that only the argument arrays, and here the result array is kept as well: it ends at the
  last boundary's contents at its own reference.
-/
import proofs.«118105_j71159018160657_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the fourteen argument arrays as launched. -/
theorem run : θ_run defs (onTc (τ := τ) (main (F := F))) ⟨m, fun _ => 0, ρ⟩ (fun r => ∀ c : Dev nD,
      r.2.mem ((c.tc : Thread nD τ).loc main_v99) = W6 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v99 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Named

end
-- ==== Proof.Spec.lean ====
/-
  One layer of the network both programs compute, entry by entry, on the extended reals.

  A layer takes three node-feature arrays t0, t1, t2 (the first three Chebyshev terms of the graph
  operator applied to the layer's input: T0 = x, T1 = L x, T2 = 2 L T1 - T0), a stack W of three weight
  matrices, a bias b and the four batch-normalisation vectors (scale g, shift beta, running mean m,
  running variance v), and returns, at node r and output feature j,

      y r j = ((((sum_k t0 r k * W 0 k j) + (sum_k t1 r k * W 1 k j)) + (sum_k t2 r k * W 2 k j)) + b j - m j)
                * rsqrt (v j + eps) * g j + beta j,

  the first layer followed by max (.) 0.  The grouping of the three sums is the one both programs use, so no
  law of the extended reals beyond the definitions is needed to compare them; the order of the terms inside each
  sum over k is immaterial (a finite sum in a commutative monoid).  eps is the f32 nearest 1e-5, kept as the word
  both programs carry.
-/
import Idealize.ShloMosaic.PureOps.Ideal
import Idealize.ShloMosaic.PureOps.Ideal.Laws
import Idealize.ShloMosaic.Lib.ValueIdx

noncomputable section

namespace Cert.Cheb

open Idealize.ShloMosaic Idealize.ShloMosaic.ValueIdx

/-- The shapes of a layer's operands: 100000 nodes, 128 input features, 128 or 64 output features. -/
abbrev SX : Shape := ⟨2, ![100000, 128]⟩
abbrev SY : Shape := ⟨2, ![100000, 64]⟩
abbrev SW1 : Shape := ⟨3, ![3, 128, 128]⟩
abbrev SW2 : Shape := ⟨3, ![3, 128, 64]⟩
abbrev SP1 : Shape := ⟨1, ![128]⟩
abbrev SP2 : Shape := ⟨1, ![64]⟩

/-- The variance offset: the extended real that the f32 word nearest 1e-5 denotes. -/
def eps : EReal := Ideal.ofBits .f32 0x3727C5AC#32

/-- The zero the first layer's result is clamped at, as the word both programs carry. -/
def zero32 : EReal := Ideal.ofBits .f32 0x00000000#32

/-- The three matrix products of a layer at one entry: row a_i of each term against column w_i of its weight
    matrix, the first two added first. -/
def dot3 (a0 a1 a2 w0 w1 w2 : Fin 128 → EReal) : EReal :=
  ((∑ k : Fin 128, a0 k * w0 k) + (∑ k : Fin 128, a1 k * w1 k)) + (∑ k : Fin 128, a2 k * w2 k)

/-- Bias, then batch normalisation at running statistics, of one accumulated entry. -/
def bn (acc b m v g beta : EReal) : EReal :=
  (acc + b - m) * Ideal.rsqrt (v + eps) * g + beta

/-- The first layer (128 output features, clamped below at zero) at node r, feature j. -/
def hidden (t0 t1 t2 : SX.Idx → EReal) (W : SW1.Idx → EReal) (b g beta m v : SP1.Idx → EReal)
    (r : Fin 100000) (j : Fin 128) : EReal :=
  max (bn (dot3 (fun k => t0 (ix2 r k)) (fun k => t1 (ix2 r k)) (fun k => t2 (ix2 r k))
               (fun k => W (ix3 (0 : Fin 3) k j)) (fun k => W (ix3 (1 : Fin 3) k j)) (fun k => W (ix3 (2 : Fin 3) k j)))
          (b (ix1 j)) (m (ix1 j)) (v (ix1 j)) (g (ix1 j)) (beta (ix1 j))) zero32

/-- The first layer as one array. -/
def layer1 (t0 t1 t2 : SX.Idx → EReal) (W : SW1.Idx → EReal) (b g beta m v : SP1.Idx → EReal) : SX.Idx → EReal :=
  fun i => hidden t0 t1 t2 W b g beta m v (i 0) (i 1)

/-- The second layer (64 output features, no clamp) at node r, feature j. -/
def output (t0 t1 t2 : SX.Idx → EReal) (W : SW2.Idx → EReal) (b g beta m v : SP2.Idx → EReal)
    (r : Fin 100000) (j : Fin 64) : EReal :=
  bn (dot3 (fun k => t0 (ix2 r k)) (fun k => t1 (ix2 r k)) (fun k => t2 (ix2 r k))
          (fun k => W (ix3 (0 : Fin 3) k j)) (fun k => W (ix3 (1 : Fin 3) k j)) (fun k => W (ix3 (2 : Fin 3) k j)))
     (b (ix1 j)) (m (ix1 j)) (v (ix1 j)) (g (ix1 j)) (beta (ix1 j))

/-- The second layer as one array. -/
def layer2 (t0 t1 t2 : SX.Idx → EReal) (W : SW2.Idx → EReal) (b g beta m v : SP2.Idx → EReal) : SY.Idx → EReal :=
  fun i => output t0 t1 t2 W b g beta m v (i 0) (i 1)

end Cert.Cheb

end
-- ==== Proof.Layer1Blocks.lean ====
/-
  The first layer's pipelined region, read as one array.

  The region's grid has 20 points; point t brings in rows 5000 t … 5000 t + 4999 of the three Chebyshev terms
  (three 5000 × 128 blocks), the whole weight stack and the five parameter rows, and writes back one 5000 × 128
  block of the result.  The body's stored value is, entry by entry, the specification's first layer: each of
  the three matrix-unit products into a zero accumulator is the plain sum over the 128 input features
  (a change of float format is the identity on the extended reals), the three weight matrices are the three
  slabs of the stack, each parameter row is spread over the 5000 rows of the block, and the arithmetic after
  the products is pointwise.  Every row of the array lies in exactly one point's block (row r in point
  r / 5000), so the array after the region is the specification's function of the arrays the region found.
-/
import proofs.«118105_j71159018160657_1_alg».proof.Proof.Gen.KernelIdeal.Frame
import proofs.«118105_j71159018160657_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## The three non-pointwise steps of the body, at an entry -/

/-- The left operand of the product is read at the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand of the product is read at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix-unit product into the zero accumulator is, at entry (p, j), the sum over the contracted axis. -/
theorem matmul_at (A : FVec Ideal S5000x128 .bf16) (B : FVec Ideal S128x128 .bf16) (p : Fin 5000) (j : Fin 128) :
    matmul dot_S5000x128_S128x128_S5000x128_1_0_0_1_n_n none A B (constant (F := Ideal) S5000x128 .f32 0x00000000#32) (ix2 p j)
      = ∑ k : Fin 128, A (ix2 p k) * B (ix2 k j) := by
  refine (Ideal.matmul_constant_zero_apply dot_S5000x128_S128x128_S5000x128_1_0_0_1_n_n none A B (ix2 p j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The three loads of the weight stack read its three slabs. -/
theorem ld_slab0 (x3 : Vec Ideal S3x128x128 .f32) (k : Fin 128) (j : Fin 128) :
    View.ld x3 r0_1 (ix3 (0 : Fin 1) k j) = x3 (ix3 (0 : Fin 3) k j) := by
  show x3 (r0_1.idx (ix3 (0 : Fin 1) k j)) = x3 (ix3 (0 : Fin 3) k j)
  refine congrArg x3 (funext fun a => Fin.ext ?_)
  match a with
  | ⟨0, _⟩ => rfl
  | ⟨1, _⟩ => show 0 + 1 * k.val = k.val; omega
  | ⟨2, _⟩ => show 0 + 1 * j.val = j.val; omega
theorem ld_slab1 (x3 : Vec Ideal S3x128x128 .f32) (k : Fin 128) (j : Fin 128) :
    View.ld x3 r0_2 (ix3 (0 : Fin 1) k j) = x3 (ix3 (1 : Fin 3) k j) := by
  show x3 (r0_2.idx (ix3 (0 : Fin 1) k j)) = x3 (ix3 (1 : Fin 3) k j)
  refine congrArg x3 (funext fun a => Fin.ext ?_)
  match a with
  | ⟨0, _⟩ => rfl
  | ⟨1, _⟩ => show 0 + 1 * k.val = k.val; omega
  | ⟨2, _⟩ => show 0 + 1 * j.val = j.val; omega
theorem ld_slab2 (x3 : Vec Ideal S3x128x128 .f32) (k : Fin 128) (j : Fin 128) :
    View.ld x3 r0_3 (ix3 (0 : Fin 1) k j) = x3 (ix3 (2 : Fin 3) k j) := by
  show x3 (r0_3.idx (ix3 (0 : Fin 1) k j)) = x3 (ix3 (2 : Fin 3) k j)
  refine congrArg x3 (funext fun a => Fin.ext ?_)
  match a with
  | ⟨0, _⟩ => rfl
  | ⟨1, _⟩ => show 0 + 1 * k.val = k.val; omega
  | ⟨2, _⟩ => show 0 + 1 * j.val = j.val; omega

/-! ## The body's stored value at an entry -/

/-- The stored block at entry (p, j), from the loaded blocks: the specification's arithmetic on row p of the three
    terms, column j of the three loaded slabs and entry j of the five parameter rows. -/
theorem pay_at (a0 a1 a2 : Vec Ideal S5000x128 .f32) (w0 w1 w2 : Vec Ideal S1x128x128 .f32)
    (rb rg rbeta rm rv : Vec Ideal S1x128 .f32) (p : Fin 5000) (j : Fin 128) :
    k0_pay1 (k0_pay2 a0 a1 a2 w0 w1 w2 rb rm) (k0_pay3 rv) rg rbeta (ix2 p j)
      = max (Cheb.bn (Cheb.dot3 (fun k => a0 (ix2 p k)) (fun k => a1 (ix2 p k)) (fun k => a2 (ix2 p k))
                (fun k => w0 (ix3 (0 : Fin 1) k j)) (fun k => w1 (ix3 (0 : Fin 1) k j)) (fun k => w2 (ix3 (0 : Fin 1) k j)))
              (rb (ix2 (0 : Fin 1) j)) (rm (ix2 (0 : Fin 1) j)) (rv (ix2 (0 : Fin 1) j)) (rg (ix2 (0 : Fin 1) j)) (rbeta (ix2 (0 : Fin 1) j)))
          Cheb.zero32 := by
  unfold k0_pay1 k0_pay2 k0_pay3 Cheb.bn Cheb.dot3 Cheb.eps Cheb.zero32
  simp only [shapeCast_self]
  simp only [maximumf_apply, addf_apply, mulf_apply, subf_apply, broadcast_apply, matmul_at, broadcastTo_1b_ab_apply,
    truncf_apply, shapeCast_1ab_ab_apply]
  rfl

/-- The same entry from the blocks of the arrays: when the loaded blocks are rows i 0 (of the three terms), the
    whole weight stack and the five parameter rows of arrays X0 X1 X2 W and b g beta mu var, the stored block at
    y is the specification's first layer at the array index i whose feature coordinate is y's. -/
theorem block_entry (X0 X1 X2 : S100000x128.Idx → EReal) (W : S3x128x128.Idx → EReal) (b g beta mu var : Cheb.SP1.Idx → EReal)
    (a0 a1 a2 : Vec Ideal S5000x128 .f32) (x3 : Vec Ideal S3x128x128 .f32) (rb rg rbeta rm rv : Vec Ideal S1x128 .f32)
    (y : S5000x128.Idx) (i : S100000x128.Idx)
    (h0 : ∀ k : Fin 128, a0 (ix2 (y 0) k) = X0 (ix2 (i 0) k))
    (h1 : ∀ k : Fin 128, a1 (ix2 (y 0) k) = X1 (ix2 (i 0) k))
    (h2 : ∀ k : Fin 128, a2 (ix2 (y 0) k) = X2 (ix2 (i 0) k))
    (hW : ∀ (w : Fin 3) (k : Fin 128) (q : Fin 128), x3 (ix3 w k q) = W (ix3 w k q))
    (hi1 : (i 1).val = (y 1).val)
    (hb : ∀ q : Fin 128, rb (ix2 (0 : Fin 1) q) = b (ix1 q)) (hg : ∀ q : Fin 128, rg (ix2 (0 : Fin 1) q) = g (ix1 q))
    (hbeta : ∀ q : Fin 128, rbeta (ix2 (0 : Fin 1) q) = beta (ix1 q)) (hmu : ∀ q : Fin 128, rm (ix2 (0 : Fin 1) q) = mu (ix1 q))
    (hvar : ∀ q : Fin 128, rv (ix2 (0 : Fin 1) q) = var (ix1 q)) :
    k0_pay1 (k0_pay2 a0 a1 a2 (View.ld x3 r0_1) (View.ld x3 r0_2) (View.ld x3 r0_3) rb rm) (k0_pay3 rv) rg rbeta y
      = Cheb.layer1 X0 X1 X2 W b g beta mu var i := by
  obtain ⟨p, j, rfl⟩ : ∃ (p : Fin 5000) (j : Fin 128), y = ix2 p j := ⟨y 0, y 1, eq_ix2 y⟩
  obtain ⟨r, q, rfl⟩ : ∃ (r : Fin 100000) (q : Fin 128), i = ix2 r q := ⟨i 0, i 1, eq_ix2 i⟩
  have hq : q = j := Fin.ext hi1
  subst hq
  refine (pay_at a0 a1 a2 _ _ _ rb rg rbeta rm rv p q).trans ?_
  show _ = Cheb.hidden X0 X1 X2 W b g beta mu var r q
  unfold Cheb.hidden
  simp only [hb, hg, hbeta, hmu, hvar]
  have s0 : (fun k : Fin 128 => View.ld x3 r0_1 (ix3 (0 : Fin 1) k q)) = fun k => W (ix3 (0 : Fin 3) k q) :=
    funext fun k => (ld_slab0 x3 k q).trans (hW 0 k q)
  have s1 : (fun k : Fin 128 => View.ld x3 r0_2 (ix3 (0 : Fin 1) k q)) = fun k => W (ix3 (1 : Fin 3) k q) :=
    funext fun k => (ld_slab1 x3 k q).trans (hW 1 k q)
  have s2 : (fun k : Fin 128 => View.ld x3 r0_3 (ix3 (0 : Fin 1) k q)) = fun k => W (ix3 (2 : Fin 3) k q) :=
    funext fun k => (ld_slab2 x3 k q).trans (hW 2 k q)
  rw [s0, s1, s2]
  have e0 : (fun k : Fin 128 => a0 (ix2 p k)) = fun k => X0 (ix2 r k) := funext h0
  have e1 : (fun k : Fin 128 => a1 (ix2 p k)) = fun k => X1 (ix2 r k) := funext h1
  have e2 : (fun k : Fin 128 => a2 (ix2 p k)) = fun k => X2 (ix2 r k) := funext h2
  rw [e0, e1, e2]

/-! ## The blocks of one point, and the array -/

/-- The index maps over the grid: the three terms' blocks and the result's block move together along the rows
    (block t at point t) and do not move along the features; the weight stack and the parameter rows are whole. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

variable (V : (c : Dev nD) → (b : Ref sig .tc) → Buf (Elt Ideal) ((c : Thread nD τ).loc b))

/-- An index of the array is in point t's block iff each coordinate is in the block's range on its axis. -/
theorem mem_blk (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v64).slice (win0_9.rect t)).set ↔ _
  rw [View.set_slice_whole, Rect.mem_set_unit]
  exact Iff.rfl

/-- Row r of the array lies in the block of point r / 5000. -/
theorem cover (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_9 _, ?_⟩
  rw [mem_blk]
  obtain ⟨e0, e1, -⟩ := idx_facts ⟨(i 0).val / 5000, by rw [hN]; omega⟩
  intro a
  match a with
  | ⟨0, _⟩ =>
    show win0_9.index _ (0 : Fin 2) * 5000 ≤ (i 0).val ∧ (i 0).val < win0_9.index _ (0 : Fin 2) * 5000 + 5000
    rw [e0]; show (i 0).val / 5000 * 5000 ≤ (i 0).val ∧ (i 0).val < (i 0).val / 5000 * 5000 + 5000; omega
  | ⟨1, _⟩ =>
    show win0_9.index _ (1 : Fin 2) * 128 ≤ (i 1).val ∧ (i 1).val < win0_9.index _ (1 : Fin 2) * 128 + 128
    rw [e1]; omega

/-- What point t writes back is block t of the specification's first layer of the arrays the region found. -/
theorem flushed_eq (c : Dev nD) (t : Fin cfg0.N)
    (b g beta mu var : Cheb.SP1.Idx → EReal)
    (hb : ∀ j : Fin 128, (V c main_v59 : S1x128.Idx → EReal) (ix2 (0 : Fin 1) j) = b (ix1 j))
    (hg : ∀ j : Fin 128, (V c main_v60 : S1x128.Idx → EReal) (ix2 (0 : Fin 1) j) = g (ix1 j))
    (hbeta : ∀ j : Fin 128, (V c main_v61 : S1x128.Idx → EReal) (ix2 (0 : Fin 1) j) = beta (ix1 j))
    (hmu : ∀ j : Fin 128, (V c main_v62 : S1x128.Idx → EReal) (ix2 (0 : Fin 1) j) = mu (ix1 j))
    (hvar : ∀ j : Fin 128, (V c main_v63 : S1x128.Idx → EReal) (ix2 (0 : Fin 1) j) = var (ix1 j)) :
    (dat0 V c).flushed 9 t = ((cfg0.win 9).blk t).view.read (Elt Ideal)
      (Cheb.layer1 (V c main_arg0) (V c main_v42) (V c main_v58) (V c main_arg2) b g beta mu var) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S1x128) hz2]
  obtain ⟨e9r, e9c, e0r, e0c, e1r, e1c, e2r, e2c, e3a, e3b, e3c, e4a, e4b, e5a, e5b, e6a, e6b, e7a, e7b, e8a, e8b⟩ := idx_facts t
  funext y
  refine block_entry (V c main_arg0) (V c main_v42) (V c main_v58) (V c main_arg2) b g beta mu var
    (iblk0 V c 0 t) (iblk0 V c 1 t) (iblk0 V c 2 t) (iblk0 V c 3 t) (iblk0 V c 4 t) (iblk0 V c 5 t) (iblk0 V c 6 t) (iblk0 V c 7 t) (iblk0 V c 8 t)
    y (((View.whole main_v64).slice ((win0 9).rect t)).emb y) ?_ ?_ ?_ ?_ ?_ ?_ ?_ ?_ ?_ ?_
  · intro k
    show V c main_arg0 (((cfg0.win 0).blk t).view.emb (ix2 (y 0) k)) = _
    refine congrArg _ (funext fun a => Fin.ext ?_)
    match a with
    | ⟨0, _⟩ => show win0_0.index t (0 : Fin 2) * 5000 + 1 * (y 0).val = win0_9.index t (0 : Fin 2) * 5000 + 1 * (y 0).val; rw [e0r, e9r]
    | ⟨1, _⟩ => show win0_0.index t (1 : Fin 2) * 128 + 1 * k.val = k.val; rw [e0c]; omega
  · intro k
    show V c main_v42 (((cfg0.win 1).blk t).view.emb (ix2 (y 0) k)) = _
    refine congrArg _ (funext fun a => Fin.ext ?_)
    match a with
    | ⟨0, _⟩ => show win0_1.index t (0 : Fin 2) * 5000 + 1 * (y 0).val = win0_9.index t (0 : Fin 2) * 5000 + 1 * (y 0).val; rw [e1r, e9r]
    | ⟨1, _⟩ => show win0_1.index t (1 : Fin 2) * 128 + 1 * k.val = k.val; rw [e1c]; omega
  · intro k
    show V c main_v58 (((cfg0.win 2).blk t).view.emb (ix2 (y 0) k)) = _
    refine congrArg _ (funext fun a => Fin.ext ?_)
    match a with
    | ⟨0, _⟩ => show win0_2.index t (0 : Fin 2) * 5000 + 1 * (y 0).val = win0_9.index t (0 : Fin 2) * 5000 + 1 * (y 0).val; rw [e2r, e9r]
    | ⟨1, _⟩ => show win0_2.index t (1 : Fin 2) * 128 + 1 * k.val = k.val; rw [e2c]; omega
  · intro w k q
    show V c main_arg2 (((cfg0.win 3).blk t).view.emb (ix3 w k q)) = _
    refine congrArg _ (funext fun a => Fin.ext ?_)
    match a with
    | ⟨0, _⟩ => show win0_3.index t (0 : Fin 3) * 3 + 1 * w.val = w.val; rw [e3a]; omega
    | ⟨1, _⟩ => show win0_3.index t (1 : Fin 3) * 128 + 1 * k.val = k.val; rw [e3b]; omega
    | ⟨2, _⟩ => show win0_3.index t (2 : Fin 3) * 128 + 1 * q.val = q.val; rw [e3c]; omega
  · show win0_9.index t (1 : Fin 2) * 128 + 1 * (y 1).val = (y 1).val
    rw [e9c]; omega
  · intro q
    refine Eq.trans ?_ (hb q)
    show V c main_v59 (((cfg0.win 4).blk t).view.emb (ix2 (0 : Fin 1) q)) = V c main_v59 (ix2 (0 : Fin 1) q)
    refine congrArg _ (funext fun a => Fin.ext ?_)
    match a with
    | ⟨0, _⟩ => show win0_4.index t (0 : Fin 2) * 1 + 1 * 0 = 0; rw [e4a]
    | ⟨1, _⟩ => show win0_4.index t (1 : Fin 2) * 128 + 1 * q.val = q.val; rw [e4b]; omega
  · intro q
    refine Eq.trans ?_ (hg q)
    show V c main_v60 (((cfg0.win 5).blk t).view.emb (ix2 (0 : Fin 1) q)) = V c main_v60 (ix2 (0 : Fin 1) q)
    refine congrArg _ (funext fun a => Fin.ext ?_)
    match a with
    | ⟨0, _⟩ => show win0_5.index t (0 : Fin 2) * 1 + 1 * 0 = 0; rw [e5a]
    | ⟨1, _⟩ => show win0_5.index t (1 : Fin 2) * 128 + 1 * q.val = q.val; rw [e5b]; omega
  · intro q
    refine Eq.trans ?_ (hbeta q)
    show V c main_v61 (((cfg0.win 6).blk t).view.emb (ix2 (0 : Fin 1) q)) = V c main_v61 (ix2 (0 : Fin 1) q)
    refine congrArg _ (funext fun a => Fin.ext ?_)
    match a with
    | ⟨0, _⟩ => show win0_6.index t (0 : Fin 2) * 1 + 1 * 0 = 0; rw [e6a]
    | ⟨1, _⟩ => show win0_6.index t (1 : Fin 2) * 128 + 1 * q.val = q.val; rw [e6b]; omega
  · intro q
    refine Eq.trans ?_ (hmu q)
    show V c main_v62 (((cfg0.win 7).blk t).view.emb (ix2 (0 : Fin 1) q)) = V c main_v62 (ix2 (0 : Fin 1) q)
    refine congrArg _ (funext fun a => Fin.ext ?_)
    match a with
    | ⟨0, _⟩ => show win0_7.index t (0 : Fin 2) * 1 + 1 * 0 = 0; rw [e7a]
    | ⟨1, _⟩ => show win0_7.index t (1 : Fin 2) * 128 + 1 * q.val = q.val; rw [e7b]; omega
  · intro q
    refine Eq.trans ?_ (hvar q)
    show V c main_v63 (((cfg0.win 8).blk t).view.emb (ix2 (0 : Fin 1) q)) = V c main_v63 (ix2 (0 : Fin 1) q)
    refine congrArg _ (funext fun a => Fin.ext ?_)
    match a with
    | ⟨0, _⟩ => show win0_8.index t (0 : Fin 2) * 1 + 1 * 0 = 0; rw [e8a]
    | ⟨1, _⟩ => show win0_8.index t (1 : Fin 2) * 128 + 1 * q.val = q.val; rw [e8b]; omega

/-- THE ARRAY after the region: the specification's first layer of the arrays the region found, the five parameter
    rows read as vectors. -/
theorem array_eq (c : Dev nD) (b g beta mu var : Cheb.SP1.Idx → EReal)
    (hb : ∀ j : Fin 128, (V c main_v59 : S1x128.Idx → EReal) (ix2 (0 : Fin 1) j) = b (ix1 j))
    (hg : ∀ j : Fin 128, (V c main_v60 : S1x128.Idx → EReal) (ix2 (0 : Fin 1) j) = g (ix1 j))
    (hbeta : ∀ j : Fin 128, (V c main_v61 : S1x128.Idx → EReal) (ix2 (0 : Fin 1) j) = beta (ix1 j))
    (hmu : ∀ j : Fin 128, (V c main_v62 : S1x128.Idx → EReal) (ix2 (0 : Fin 1) j) = mu (ix1 j))
    (hvar : ∀ j : Fin 128, (V c main_v63 : S1x128.Idx → EReal) (ix2 (0 : Fin 1) j) = var (ix1 j)) :
    (dat0 V c).arrAt 9 cfg0.N = Cheb.layer1 (V c main_arg0) (V c main_v42) (V c main_v58) (V c main_arg2) b g beta mu var :=
  (dat0 V c).arrAt_eq_of_cover 9 _ (fun t _ => flushed_eq V c t b g beta mu var hb hg hbeta hmu hvar) cover

end Cert.KernelIdeal.Layer1

end
-- ==== Proof.Layer2Blocks.lean ====
/-
  The second layer's pipelined region, read as one array.

  The same schedule as the first layer's region — 20 points, point t on rows 5000 t … 5000 t + 4999 of the three
  Chebyshev terms of the hidden features, the whole 3 × 128 × 64 weight stack and five parameter rows of 64 —
  writing back one 5000 × 64 block per point.  The stored value is, entry by entry, the specification's second
  layer (no clamp): three sums over the 128 hidden features, bias, batch normalisation.  Row r of the result
  lies in the block of point r / 5000, so the array after the region is the specification's function of the
  arrays the region found.
-/
import proofs.«118105_j71159018160657_1_alg».proof.Proof.Gen.KernelIdeal.Frame
import proofs.«118105_j71159018160657_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## The three non-pointwise steps of the body, at an entry -/

/-- The left operand of the product is read at the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The right operand of the product is read at the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A matrix-unit product into the zero accumulator is, at entry (p, j), the sum over the contracted axis. -/
theorem matmul_at (A : FVec Ideal S5000x128 .bf16) (B : FVec Ideal S128x64 .bf16) (p : Fin 5000) (j : Fin 64) :
    matmul dot_S5000x128_S128x64_S5000x64_1_0_0_1_n_n none A B (constant (F := Ideal) S5000x64 .f32 0x00000000#32) (ix2 p j)
      = ∑ k : Fin 128, A (ix2 p k) * B (ix2 k j) := by
  refine (Ideal.matmul_constant_zero_apply dot_S5000x128_S128x64_S5000x64_1_0_0_1_n_n none A B (ix2 p j)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p j) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p j) ((ValueIdx.contrEquiv1 dot_S5000x128_S128x64_S5000x64_1_0_0_1_n_n 128 rfl rfl).symm k) = ix2 k j := funext fun a => Fin.ext (by
    match a with
    | ⟨0, _⟩ => exact (dot_S5000x128_S128x64_S5000x64_1_0_0_1_n_n.rhsIdx_val_of_single rfl _ _).trans hk
    | ⟨1, _⟩ => exact rhs_col _ _)
  rw [el, er]

/-- The three loads of the weight stack read its three slabs. -/
theorem ld_slab0 (x3 : Vec Ideal S3x128x64 .f32) (k : Fin 128) (j : Fin 64) :
    View.ld x3 r1_1 (ix3 (0 : Fin 1) k j) = x3 (ix3 (0 : Fin 3) k j) := by
  show x3 (r1_1.idx (ix3 (0 : Fin 1) k j)) = x3 (ix3 (0 : Fin 3) k j)
  refine congrArg x3 (funext fun a => Fin.ext ?_)
  match a with
  | ⟨0, _⟩ => rfl
  | ⟨1, _⟩ => show 0 + 1 * k.val = k.val; omega
  | ⟨2, _⟩ => show 0 + 1 * j.val = j.val; omega
theorem ld_slab1 (x3 : Vec Ideal S3x128x64 .f32) (k : Fin 128) (j : Fin 64) :
    View.ld x3 r1_2 (ix3 (0 : Fin 1) k j) = x3 (ix3 (1 : Fin 3) k j) := by
  show x3 (r1_2.idx (ix3 (0 : Fin 1) k j)) = x3 (ix3 (1 : Fin 3) k j)
  refine congrArg x3 (funext fun a => Fin.ext ?_)
  match a with
  | ⟨0, _⟩ => rfl
  | ⟨1, _⟩ => show 0 + 1 * k.val = k.val; omega
  | ⟨2, _⟩ => show 0 + 1 * j.val = j.val; omega
theorem ld_slab2 (x3 : Vec Ideal S3x128x64 .f32) (k : Fin 128) (j : Fin 64) :
    View.ld x3 r1_3 (ix3 (0 : Fin 1) k j) = x3 (ix3 (2 : Fin 3) k j) := by
  show x3 (r1_3.idx (ix3 (0 : Fin 1) k j)) = x3 (ix3 (2 : Fin 3) k j)
  refine congrArg x3 (funext fun a => Fin.ext ?_)
  match a with
  | ⟨0, _⟩ => rfl
  | ⟨1, _⟩ => show 0 + 1 * k.val = k.val; omega
  | ⟨2, _⟩ => show 0 + 1 * j.val = j.val; omega

/-! ## The body's stored value at an entry -/

/-- The stored block at entry (p, j), from the loaded blocks: the specification's arithmetic on row p of the three
    terms, column j of the three loaded slabs and entry j of the five parameter rows. -/
theorem pay_at (a0 a1 a2 : Vec Ideal S5000x128 .f32) (w0 w1 w2 : Vec Ideal S1x128x64 .f32)
    (rb rg rbeta rm rv : Vec Ideal S1x64 .f32) (p : Fin 5000) (j : Fin 64) :
    k1_pay1 (k1_pay2 a0 a1 a2 w0 w1 w2 rb rm) (k1_pay3 rv) (k1_pay4 (F := Ideal)) rg rbeta (ix2 p j)
      = Cheb.bn (Cheb.dot3 (fun k => a0 (ix2 p k)) (fun k => a1 (ix2 p k)) (fun k => a2 (ix2 p k))
                (fun k => w0 (ix3 (0 : Fin 1) k j)) (fun k => w1 (ix3 (0 : Fin 1) k j)) (fun k => w2 (ix3 (0 : Fin 1) k j)))
              (rb (ix2 (0 : Fin 1) j)) (rm (ix2 (0 : Fin 1) j)) (rv (ix2 (0 : Fin 1) j)) (rg (ix2 (0 : Fin 1) j)) (rbeta (ix2 (0 : Fin 1) j)) := by
  unfold k1_pay1 k1_pay2 k1_pay3 k1_pay4 Cheb.bn Cheb.dot3 Cheb.eps
  simp only [shapeCast_self]
  simp only [addf_apply, mulf_apply, subf_apply, broadcast_apply, matmul_at, broadcastTo_1b_ab_apply,
    truncf_apply, shapeCast_1ab_ab_apply]
  rfl

/-- The same entry from the blocks of the arrays: when the loaded blocks are rows i 0 (of the three terms), the
    whole weight stack and the five parameter rows of arrays X0 X1 X2 W and b g beta mu var, the stored block at
    y is the specification's second layer at the array index i whose feature coordinate is y's. -/
theorem block_entry (X0 X1 X2 : S100000x128.Idx → EReal) (W : S3x128x64.Idx → EReal) (b g beta mu var : Cheb.SP2.Idx → EReal)
    (a0 a1 a2 : Vec Ideal S5000x128 .f32) (x3 : Vec Ideal S3x128x64 .f32) (rb rg rbeta rm rv : Vec Ideal S1x64 .f32)
    (y : S5000x64.Idx) (i : S100000x64.Idx)
    (h0 : ∀ k : Fin 128, a0 (ix2 (y 0) k) = X0 (ix2 (i 0) k))
    (h1 : ∀ k : Fin 128, a1 (ix2 (y 0) k) = X1 (ix2 (i 0) k))
    (h2 : ∀ k : Fin 128, a2 (ix2 (y 0) k) = X2 (ix2 (i 0) k))
    (hW : ∀ (w : Fin 3) (k : Fin 128) (q : Fin 64), x3 (ix3 w k q) = W (ix3 w k q))
    (hi1 : (i 1).val = (y 1).val)
    (hb : ∀ q : Fin 64, rb (ix2 (0 : Fin 1) q) = b (ix1 q)) (hg : ∀ q : Fin 64, rg (ix2 (0 : Fin 1) q) = g (ix1 q))
    (hbeta : ∀ q : Fin 64, rbeta (ix2 (0 : Fin 1) q) = beta (ix1 q)) (hmu : ∀ q : Fin 64, rm (ix2 (0 : Fin 1) q) = mu (ix1 q))
    (hvar : ∀ q : Fin 64, rv (ix2 (0 : Fin 1) q) = var (ix1 q)) :
    k1_pay1 (k1_pay2 a0 a1 a2 (View.ld x3 r1_1) (View.ld x3 r1_2) (View.ld x3 r1_3) rb rm) (k1_pay3 rv) (k1_pay4 (F := Ideal)) rg rbeta y
      = Cheb.layer2 X0 X1 X2 W b g beta mu var i := by
  obtain ⟨p, j, rfl⟩ : ∃ (p : Fin 5000) (j : Fin 64), y = ix2 p j := ⟨y 0, y 1, eq_ix2 y⟩
  obtain ⟨r, q, rfl⟩ : ∃ (r : Fin 100000) (q : Fin 64), i = ix2 r q := ⟨i 0, i 1, eq_ix2 i⟩
  have hq : q = j := Fin.ext hi1
  subst hq
  refine (pay_at a0 a1 a2 _ _ _ rb rg rbeta rm rv p q).trans ?_
  show _ = Cheb.output X0 X1 X2 W b g beta mu var r q
  unfold Cheb.output
  simp only [hb, hg, hbeta, hmu, hvar]
  have s0 : (fun k : Fin 128 => View.ld x3 r1_1 (ix3 (0 : Fin 1) k q)) = fun k => W (ix3 (0 : Fin 3) k q) :=
    funext fun k => (ld_slab0 x3 k q).trans (hW 0 k q)
  have s1 : (fun k : Fin 128 => View.ld x3 r1_2 (ix3 (0 : Fin 1) k q)) = fun k => W (ix3 (1 : Fin 3) k q) :=
    funext fun k => (ld_slab1 x3 k q).trans (hW 1 k q)
  have s2 : (fun k : Fin 128 => View.ld x3 r1_3 (ix3 (0 : Fin 1) k q)) = fun k => W (ix3 (2 : Fin 3) k q) :=
    funext fun k => (ld_slab2 x3 k q).trans (hW 2 k q)
  rw [s0, s1, s2]
  have e0 : (fun k : Fin 128 => a0 (ix2 p k)) = fun k => X0 (ix2 r k) := funext h0
  have e1 : (fun k : Fin 128 => a1 (ix2 p k)) = fun k => X1 (ix2 r k) := funext h1
  have e2 : (fun k : Fin 128 => a2 (ix2 p k)) = fun k => X2 (ix2 r k) := funext h2
  rw [e0, e1, e2]

/-! ## The blocks of one point, and the array -/

/-- The index maps over the grid: the three terms' blocks and the result's block move together along the rows
    (block t at point t) and do not move along the features; the weight stack and the parameter rows are whole. -/
theorem idx_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

variable (V : (c : Dev nD) → (b : Ref sig .tc) → Buf (Elt Ideal) ((c : Thread nD τ).loc b))

/-- An index of the array is in point t's block iff each coordinate is in the block's range on its axis. -/
theorem mem_blk (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v99).slice (win1_9.rect t)).set ↔ _
  rw [View.set_slice_whole, Rect.mem_set_unit]
  exact Iff.rfl

/-- Row r of the array lies in the block of point r / 5000. -/
theorem cover (i : S100000x64.Idx) : ∃ t : Fin cfg1.N, (cfg1.win 9).flush t = true ∧ i ∈ ((cfg1.win 9).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_9 _, ?_⟩
  rw [mem_blk]
  obtain ⟨e0, e1, -⟩ := idx_facts ⟨(i 0).val / 5000, by rw [hN]; omega⟩
  intro a
  match a with
  | ⟨0, _⟩ =>
    show win1_9.index _ (0 : Fin 2) * 5000 ≤ (i 0).val ∧ (i 0).val < win1_9.index _ (0 : Fin 2) * 5000 + 5000
    rw [e0]; show (i 0).val / 5000 * 5000 ≤ (i 0).val ∧ (i 0).val < (i 0).val / 5000 * 5000 + 5000; omega
  | ⟨1, _⟩ =>
    show win1_9.index _ (1 : Fin 2) * 64 ≤ (i 1).val ∧ (i 1).val < win1_9.index _ (1 : Fin 2) * 64 + 64
    rw [e1]; omega

/-- What point t writes back is block t of the specification's second layer of the arrays the region found. -/
theorem flushed_eq (c : Dev nD) (t : Fin cfg1.N)
    (b g beta mu var : Cheb.SP2.Idx → EReal)
    (hb : ∀ j : Fin 64, (V c main_v94 : S1x64.Idx → EReal) (ix2 (0 : Fin 1) j) = b (ix1 j))
    (hg : ∀ j : Fin 64, (V c main_v95 : S1x64.Idx → EReal) (ix2 (0 : Fin 1) j) = g (ix1 j))
    (hbeta : ∀ j : Fin 64, (V c main_v96 : S1x64.Idx → EReal) (ix2 (0 : Fin 1) j) = beta (ix1 j))
    (hmu : ∀ j : Fin 64, (V c main_v97 : S1x64.Idx → EReal) (ix2 (0 : Fin 1) j) = mu (ix1 j))
    (hvar : ∀ j : Fin 64, (V c main_v98 : S1x64.Idx → EReal) (ix2 (0 : Fin 1) j) = var (ix1 j)) :
    (dat1 V c).flushed 9 t = ((cfg1.win 9).blk t).view.read (Elt Ideal)
      (Cheb.layer2 (V c main_v64) (V c main_v77) (V c main_v93) (V c main_arg4) b g beta mu var) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S1x64) hz2]
  obtain ⟨e9r, e9c, e0r, e0c, e1r, e1c, e2r, e2c, e3a, e3b, e3c, e4a, e4b, e5a, e5b, e6a, e6b, e7a, e7b, e8a, e8b⟩ := idx_facts t
  funext y
  refine block_entry (V c main_v64) (V c main_v77) (V c main_v93) (V c main_arg4) b g beta mu var
    (iblk1 V c 0 t) (iblk1 V c 1 t) (iblk1 V c 2 t) (iblk1 V c 3 t) (iblk1 V c 4 t) (iblk1 V c 5 t) (iblk1 V c 6 t) (iblk1 V c 7 t) (iblk1 V c 8 t)
    y (((View.whole main_v99).slice ((win1 9).rect t)).emb y) ?_ ?_ ?_ ?_ ?_ ?_ ?_ ?_ ?_ ?_
  · intro k
    show V c main_v64 (((cfg1.win 0).blk t).view.emb (ix2 (y 0) k)) = _
    refine congrArg _ (funext fun a => Fin.ext ?_)
    match a with
    | ⟨0, _⟩ => show win1_0.index t (0 : Fin 2) * 5000 + 1 * (y 0).val = win1_9.index t (0 : Fin 2) * 5000 + 1 * (y 0).val; rw [e0r, e9r]
    | ⟨1, _⟩ => show win1_0.index t (1 : Fin 2) * 128 + 1 * k.val = k.val; rw [e0c]; omega
  · intro k
    show V c main_v77 (((cfg1.win 1).blk t).view.emb (ix2 (y 0) k)) = _
    refine congrArg _ (funext fun a => Fin.ext ?_)
    match a with
    | ⟨0, _⟩ => show win1_1.index t (0 : Fin 2) * 5000 + 1 * (y 0).val = win1_9.index t (0 : Fin 2) * 5000 + 1 * (y 0).val; rw [e1r, e9r]
    | ⟨1, _⟩ => show win1_1.index t (1 : Fin 2) * 128 + 1 * k.val = k.val; rw [e1c]; omega
  · intro k
    show V c main_v93 (((cfg1.win 2).blk t).view.emb (ix2 (y 0) k)) = _
    refine congrArg _ (funext fun a => Fin.ext ?_)
    match a with
    | ⟨0, _⟩ => show win1_2.index t (0 : Fin 2) * 5000 + 1 * (y 0).val = win1_9.index t (0 : Fin 2) * 5000 + 1 * (y 0).val; rw [e2r, e9r]
    | ⟨1, _⟩ => show win1_2.index t (1 : Fin 2) * 128 + 1 * k.val = k.val; rw [e2c]; omega
  · intro w k q
    show V c main_arg4 (((cfg1.win 3).blk t).view.emb (ix3 w k q)) = _
    refine congrArg _ (funext fun a => Fin.ext ?_)
    match a with
    | ⟨0, _⟩ => show win1_3.index t (0 : Fin 3) * 3 + 1 * w.val = w.val; rw [e3a]; omega
    | ⟨1, _⟩ => show win1_3.index t (1 : Fin 3) * 128 + 1 * k.val = k.val; rw [e3b]; omega
    | ⟨2, _⟩ => show win1_3.index t (2 : Fin 3) * 64 + 1 * q.val = q.val; rw [e3c]; omega
  · show win1_9.index t (1 : Fin 2) * 64 + 1 * (y 1).val = (y 1).val
    rw [e9c]; omega
  · intro q
    refine Eq.trans ?_ (hb q)
    show V c main_v94 (((cfg1.win 4).blk t).view.emb (ix2 (0 : Fin 1) q)) = V c main_v94 (ix2 (0 : Fin 1) q)
    refine congrArg _ (funext fun a => Fin.ext ?_)
    match a with
    | ⟨0, _⟩ => show win1_4.index t (0 : Fin 2) * 1 + 1 * 0 = 0; rw [e4a]
    | ⟨1, _⟩ => show win1_4.index t (1 : Fin 2) * 64 + 1 * q.val = q.val; rw [e4b]; omega
  · intro q
    refine Eq.trans ?_ (hg q)
    show V c main_v95 (((cfg1.win 5).blk t).view.emb (ix2 (0 : Fin 1) q)) = V c main_v95 (ix2 (0 : Fin 1) q)
    refine congrArg _ (funext fun a => Fin.ext ?_)
    match a with
    | ⟨0, _⟩ => show win1_5.index t (0 : Fin 2) * 1 + 1 * 0 = 0; rw [e5a]
    | ⟨1, _⟩ => show win1_5.index t (1 : Fin 2) * 64 + 1 * q.val = q.val; rw [e5b]; omega
  · intro q
    refine Eq.trans ?_ (hbeta q)
    show V c main_v96 (((cfg1.win 6).blk t).view.emb (ix2 (0 : Fin 1) q)) = V c main_v96 (ix2 (0 : Fin 1) q)
    refine congrArg _ (funext fun a => Fin.ext ?_)
    match a with
    | ⟨0, _⟩ => show win1_6.index t (0 : Fin 2) * 1 + 1 * 0 = 0; rw [e6a]
    | ⟨1, _⟩ => show win1_6.index t (1 : Fin 2) * 64 + 1 * q.val = q.val; rw [e6b]; omega
  · intro q
    refine Eq.trans ?_ (hmu q)
    show V c main_v97 (((cfg1.win 7).blk t).view.emb (ix2 (0 : Fin 1) q)) = V c main_v97 (ix2 (0 : Fin 1) q)
    refine congrArg _ (funext fun a => Fin.ext ?_)
    match a with
    | ⟨0, _⟩ => show win1_7.index t (0 : Fin 2) * 1 + 1 * 0 = 0; rw [e7a]
    | ⟨1, _⟩ => show win1_7.index t (1 : Fin 2) * 64 + 1 * q.val = q.val; rw [e7b]; omega
  · intro q
    refine Eq.trans ?_ (hvar q)
    show V c main_v98 (((cfg1.win 8).blk t).view.emb (ix2 (0 : Fin 1) q)) = V c main_v98 (ix2 (0 : Fin 1) q)
    refine congrArg _ (funext fun a => Fin.ext ?_)
    match a with
    | ⟨0, _⟩ => show win1_8.index t (0 : Fin 2) * 1 + 1 * 0 = 0; rw [e8a]
    | ⟨1, _⟩ => show win1_8.index t (1 : Fin 2) * 64 + 1 * q.val = q.val; rw [e8b]; omega

/-- THE ARRAY after the region: the specification's second layer of the arrays the region found, the five parameter
    rows read as vectors. -/
theorem array_eq (c : Dev nD) (b g beta mu var : Cheb.SP2.Idx → EReal)
    (hb : ∀ j : Fin 64, (V c main_v94 : S1x64.Idx → EReal) (ix2 (0 : Fin 1) j) = b (ix1 j))
    (hg : ∀ j : Fin 64, (V c main_v95 : S1x64.Idx → EReal) (ix2 (0 : Fin 1) j) = g (ix1 j))
    (hbeta : ∀ j : Fin 64, (V c main_v96 : S1x64.Idx → EReal) (ix2 (0 : Fin 1) j) = beta (ix1 j))
    (hmu : ∀ j : Fin 64, (V c main_v97 : S1x64.Idx → EReal) (ix2 (0 : Fin 1) j) = mu (ix1 j))
    (hvar : ∀ j : Fin 64, (V c main_v98 : S1x64.Idx → EReal) (ix2 (0 : Fin 1) j) = var (ix1 j)) :
    (dat1 V c).arrAt 9 cfg1.N = Cheb.layer2 (V c main_v64) (V c main_v77) (V c main_v93) (V c main_arg4) b g beta mu var :=
  (dat1 V c).arrAt_eq_of_cover 9 _ (fun t _ => flushed_eq V c t b g beta mu var hb hg hbeta hmu hvar) cover

end Cert.KernelIdeal.Layer2

end
-- ==== Proof.RefLayers.lean ====
/-
  The reference's two dense layers, read one operation at a time, are the specification's layer functions.

  A layer of the reference cuts its stack of three weight matrices into the three matrices, contracts the three
  node-feature arrays against them over the 128 input features, adds the three products from the left, adds the
  bias, subtracts the running mean, multiplies by the reciprocal square root of the running variance plus the
  offset, multiplies by the scale and adds the shift; the first layer then takes the maximum with zero. Read at
  node r and output feature j, every slice, reshape and broadcast is a change of index and nothing else: the c-th
  matrix at (k, j) is the stack at (c, k, j), and a per-feature vector spread over the nodes is the vector at j.
  What is left is, term for term and in the same grouping, the specification's entry, so no law of the extended
  reals is used.
-/
import proofs.«118105_j71159018160657_1_alg».proof.Proof.RefReadP
import proofs.«118105_j71159018160657_1_alg».proof.Proof.Spec
import Idealize.ShloMosaic.Lib.ValueIdx
import Idealize.ShloMosaic.Lib.Pipeline.Value
import Idealize.ShloMosaic.PureOps.Ideal.Laws

noncomputable section

namespace Cert.ReferenceIdeal.Layers

open Cert.ReferenceIdeal Cert.ReferenceIdeal.ReadP Idealize.ShloMosaic Idealize.ShloMosaic.ValueIdx

/-! ## The first layer (128 output features) -/

/-- Matrix 0 of the first layer's weight stack at (k, j) is the stack at (0, k, j): in row-major order
    position k * 128 + j of the 128 x 128 matrix is position (0, k, j) of the 1 x 128 x 128 slice. -/
theorem weight1_0 (x2 : (⟨S3x128x128, .f32⟩ : BufTy).Contents (Elt Ideal)) (k j : Fin 128) :
    val_main_v31 (F := Ideal) x2 (ix2 k j) = x2 (ix3 (0 : Fin 3) k j) := by
  rw [val_main_v31_apply, val_main_v30_apply]
  refine congrArg x2 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- Matrix 1 of the first layer's weight stack at (k, j) is the stack at (1, k, j): in row-major order
    position k * 128 + j of the 128 x 128 matrix is position (0, k, j) of the 1 x 128 x 128 slice. -/
theorem weight1_1 (x2 : (⟨S3x128x128, .f32⟩ : BufTy).Contents (Elt Ideal)) (k j : Fin 128) :
    val_main_v47 (F := Ideal) x2 (ix2 k j) = x2 (ix3 (1 : Fin 3) k j) := by
  rw [val_main_v47_apply, val_main_v46_apply]
  refine congrArg x2 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- Matrix 2 of the first layer's weight stack at (k, j) is the stack at (2, k, j): in row-major order
    position k * 128 + j of the 128 x 128 matrix is position (0, k, j) of the 1 x 128 x 128 slice. -/
theorem weight1_2 (x2 : (⟨S3x128x128, .f32⟩ : BufTy).Contents (Elt Ideal)) (k j : Fin 128) :
    val_main_v67 (F := Ideal) x2 (ix2 k j) = x2 (ix3 (2 : Fin 3) k j) := by
  rw [val_main_v67_apply, val_main_v66_apply]
  refine congrArg x2 (funext fun a => Fin.ext ?_)
  have hk : k.val < 128 := k.isLt
  have hj : j.val < 128 := j.isLt
  match a with
  | ⟨0, _⟩ => rfl
  | ⟨1, _⟩ => show (k.val * 128 + j.val) / 128 % 128 = k.val; omega
  | ⟨2, _⟩ => show (k.val * 128 + j.val) % 128 = j.val; omega

/-- Product 0 of the first layer at (r, j): row r of the node-feature array against column j of matrix 0. -/
theorem dot1_0 (x0 : (⟨S100000x128, .f32⟩ : BufTy).Contents (Elt Ideal)) (x2 : (⟨S3x128x128, .f32⟩ : BufTy).Contents (Elt Ideal)) (r : Fin 100000) (j : Fin 128) :
    val_main_v32 (F := Ideal) x0 x2 (ix2 r j) = ∑ k : Fin 128, x0 (ix2 r k) * x2 (ix3 (0 : Fin 3) k j) := by
  rw [val_main_v32_apply]
  refine Finset.sum_congr rfl fun k _ => ?_
  have hl : lidx_main_v32 (ix2 r j) k = ix2 r k := funext fun a => Fin.ext (by match a with | ⟨0, _⟩ => rfl | ⟨1, _⟩ => rfl)
  have hr : ridx_main_v32 (ix2 r j) k = ix2 k j := funext fun a => Fin.ext (by match a with | ⟨0, _⟩ => rfl | ⟨1, _⟩ => rfl)
  rw [hl, hr, weight1_0]

/-- Product 1 of the first layer at (r, j): row r of the node-feature array against column j of matrix 1. -/
theorem dot1_1 (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (r : Fin 100000) (j : Fin 128) :
    val_main_v48 (F := Ideal) x0 x1 x2 (ix2 r j) = ∑ k : Fin 128, (val_main_v45 (F := Ideal) x0 x1) (ix2 r k) * x2 (ix3 (1 : Fin 3) k j) := by
  rw [val_main_v48_apply]
  refine Finset.sum_congr rfl fun k _ => ?_
  have hl : lidx_main_v48 (ix2 r j) k = ix2 r k := funext fun a => Fin.ext (by match a with | ⟨0, _⟩ => rfl | ⟨1, _⟩ => rfl)
  have hr : ridx_main_v48 (ix2 r j) k = ix2 k j := funext fun a => Fin.ext (by match a with | ⟨0, _⟩ => rfl | ⟨1, _⟩ => rfl)
  rw [hl, hr, weight1_1]

/-- Product 2 of the first layer at (r, j): row r of the node-feature array against column j of matrix 2. -/
theorem dot1_2 (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (r : Fin 100000) (j : Fin 128) :
    val_main_v68 (F := Ideal) x0 x1 x2 (ix2 r j) = ∑ k : Fin 128, (val_main_v65 (F := Ideal) x0 x1) (ix2 r k) * x2 (ix3 (2 : Fin 3) k j) := by
  rw [val_main_v68_apply]
  refine Finset.sum_congr rfl fun k _ => ?_
  have hl : lidx_main_v68 (ix2 r j) k = ix2 r k := funext fun a => Fin.ext (by match a with | ⟨0, _⟩ => rfl | ⟨1, _⟩ => rfl)
  have hr : ridx_main_v68 (ix2 r j) k = ix2 k j := funext fun a => Fin.ext (by match a with | ⟨0, _⟩ => rfl | ⟨1, _⟩ => rfl)
  rw [hl, hr, weight1_2]

/-- The bias of the first layer, spread over the nodes, at (r, j) is the vector at j. -/
theorem bias1 (x3 : (⟨S128, .f32⟩ : BufTy).Contents (Elt Ideal)) (r : Fin 100000) (j : Fin 128) :
    val_main_v71 (F := Ideal) x3 (ix2 r j) = x3 (ix1 j) := by
  rw [val_main_v71_apply, val_main_v70_apply]
  exact congrArg x3 (funext fun a => Fin.ext (by match a with | ⟨0, _⟩ => rfl))

/-- The running mean of the first layer, spread over the nodes, at (r, j) is the vector at j. -/
theorem mean1 (x8 : (⟨S128, .f32⟩ : BufTy).Contents (Elt Ideal)) (r : Fin 100000) (j : Fin 128) :
    val_main_v74 (F := Ideal) x8 (ix2 r j) = x8 (ix1 j) := by
  rw [val_main_v74_apply, val_main_v73_apply]
  exact congrArg x8 (funext fun a => Fin.ext (by match a with | ⟨0, _⟩ => rfl))

/-- The reciprocal standard deviation of the first layer, spread over the nodes, at (r, j) is the vector at j. -/
theorem rstd1 (x9 : (⟨S128, .f32⟩ : BufTy).Contents (Elt Ideal)) (r : Fin 100000) (j : Fin 128) :
    val_main_v80 (F := Ideal) x9 (ix2 r j) = val_main_v78 (F := Ideal) x9 (ix1 j) := by
  rw [val_main_v80_apply, val_main_v79_apply]
  exact congrArg (val_main_v78 (F := Ideal) x9) (funext fun a => Fin.ext (by match a with | ⟨0, _⟩ => rfl))

/-- The scale of the first layer, spread over the nodes, at (r, j) is the vector at j. -/
theorem scale1 (x6 : (⟨S128, .f32⟩ : BufTy).Contents (Elt Ideal)) (r : Fin 100000) (j : Fin 128) :
    val_main_v83 (F := Ideal) x6 (ix2 r j) = x6 (ix1 j) := by
  rw [val_main_v83_apply, val_main_v82_apply]
  exact congrArg x6 (funext fun a => Fin.ext (by match a with | ⟨0, _⟩ => rfl))

/-- The shift of the first layer, spread over the nodes, at (r, j) is the vector at j. -/
theorem shift1 (x7 : (⟨S128, .f32⟩ : BufTy).Contents (Elt Ideal)) (r : Fin 100000) (j : Fin 128) :
    val_main_v86 (F := Ideal) x7 (ix2 r j) = x7 (ix1 j) := by
  rw [val_main_v86_apply, val_main_v85_apply]
  exact congrArg x7 (funext fun a => Fin.ext (by match a with | ⟨0, _⟩ => rfl))

/-- The reference's first layer is the specification's: at node r and feature j both are the three products added
    from the left, plus the bias, minus the mean, times the reciprocal root of variance plus offset, times the
    scale, plus the shift, clamped below at zero. The two propagated node-feature arrays enter as they are. -/
theorem hidden_eq (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 x6 x7 x8 x9 : (⟨S128, .f32⟩ : BufTy).Contents (Elt Ideal)) :
    (val_main_v88 (F := Ideal) x0 x1 x2 x3 x6 x7 x8 x9 : S100000x128.Idx → EReal)
      = Cert.Cheb.layer1 x0 (val_main_v45 (F := Ideal) x0 x1) (val_main_v65 (F := Ideal) x0 x1) x2 x3 x6 x7 x8 x9 := by
  funext i
  obtain ⟨r, j, rfl⟩ : ∃ (r : Fin 100000) (j : Fin 128), i = ix2 r j := ⟨i 0, i 1, eq_ix2 i⟩
  rw [val_main_v88_apply, val_main_v87_apply, val_main_v84_apply, val_main_v81_apply, val_main_v75_apply,
    val_main_v72_apply, val_main_v69_apply, val_main_v49_apply, dot1_0, dot1_1, dot1_2, bias1, mean1, rstd1,
    val_main_v78_apply, val_main_v77_apply, val_main_v76_apply, val_main_cst_14_apply, scale1, shift1,
    val_main_call1_v0_apply, val_main_call1_cst_apply]
  rfl

/-! ## The second layer (64 output features) -/

/-- Matrix 0 of the second layer's weight stack at (k, j) is the stack at (0, k, j): in row-major order
    position k * 64 + j of the 128 x 64 matrix is position (0, k, j) of the 1 x 128 x 64 slice. -/
theorem weight2_0 (x4 : (⟨S3x128x64, .f32⟩ : BufTy).Contents (Elt Ideal)) (k : Fin 128) (j : Fin 64) :
    val_main_v90 (F := Ideal) x4 (ix2 k j) = x4 (ix3 (0 : Fin 3) k j) := by
  rw [val_main_v90_apply, val_main_v89_apply]
  refine congrArg x4 (funext fun a => Fin.ext ?_)
  have hk : k.val < 128 := k.isLt
  have hj : j.val < 64 := j.isLt
  match a with
  | ⟨0, _⟩ => rfl
  | ⟨1, _⟩ => show (k.val * 64 + j.val) / 64 % 128 = k.val; omega
  | ⟨2, _⟩ => show (k.val * 64 + j.val) % 64 = j.val; omega

/-- Matrix 1 of the second layer's weight stack at (k, j) is the stack at (1, k, j): in row-major order
    position k * 64 + j of the 128 x 64 matrix is position (0, k, j) of the 1 x 128 x 64 slice. -/
theorem weight2_1 (x4 : (⟨S3x128x64, .f32⟩ : BufTy).Contents (Elt Ideal)) (k : Fin 128) (j : Fin 64) :
    val_main_v106 (F := Ideal) x4 (ix2 k j) = x4 (ix3 (1 : Fin 3) k j) := by
  rw [val_main_v106_apply, val_main_v105_apply]
  refine congrArg x4 (funext fun a => Fin.ext ?_)
  have hk : k.val < 128 := k.isLt
  have hj : j.val < 64 := j.isLt
  match a with
  | ⟨0, _⟩ => rfl
  | ⟨1, _⟩ => show (k.val * 64 + j.val) / 64 % 128 = k.val; omega
  | ⟨2, _⟩ => show (k.val * 64 + j.val) % 64 = j.val; omega

/-- Matrix 2 of the second layer's weight stack at (k, j) is the stack at (2, k, j): in row-major order
    position k * 64 + j of the 128 x 64 matrix is position (0, k, j) of the 1 x 128 x 64 slice. -/
theorem weight2_2 (x4 : (⟨S3x128x64, .f32⟩ : BufTy).Contents (Elt Ideal)) (k : Fin 128) (j : Fin 64) :
    val_main_v126 (F := Ideal) x4 (ix2 k j) = x4 (ix3 (2 : Fin 3) k j) := by
  rw [val_main_v126_apply, val_main_v125_apply]
  refine congrArg x4 (funext fun a => Fin.ext ?_)
  have hk : k.val < 128 := k.isLt
  have hj : j.val < 64 := j.isLt
  match a with
  | ⟨0, _⟩ => rfl
  | ⟨1, _⟩ => show (k.val * 64 + j.val) / 64 % 128 = k.val; omega
  | ⟨2, _⟩ => show (k.val * 64 + j.val) % 64 = j.val; omega

/-- Product 0 of the second layer at (r, j): row r of the node-feature array against column j of matrix 0. -/
theorem dot2_0 (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S128, .f32⟩ : BufTy).Contents (Elt Ideal)) (x4 : (⟨S3x128x64, .f32⟩ : BufTy).Contents (Elt Ideal)) (x6 x7 x8 x9 : (⟨S128, .f32⟩ : BufTy).Contents (Elt Ideal)) (r : Fin 100000) (j : Fin 64) :
    val_main_v91 (F := Ideal) x0 x1 x2 x3 x4 x6 x7 x8 x9 (ix2 r j)
      = ∑ k : Fin 128, (val_main_v88 (F := Ideal) x0 x1 x2 x3 x6 x7 x8 x9) (ix2 r k) * x4 (ix3 (0 : Fin 3) k j) := by
  rw [val_main_v91_apply]
  refine Finset.sum_congr rfl fun k _ => ?_
  have hl : lidx_main_v91 (ix2 r j) k = ix2 r k := funext fun a => Fin.ext (by match a with | ⟨0, _⟩ => rfl | ⟨1, _⟩ => rfl)
  have hr : ridx_main_v91 (ix2 r j) k = ix2 k j := funext fun a => Fin.ext (by match a with | ⟨0, _⟩ => rfl | ⟨1, _⟩ => rfl)
  rw [hl, hr, weight2_0]

/-- Product 1 of the second layer at (r, j): row r of the node-feature array against column j of matrix 1. -/
theorem dot2_1 (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S128, .f32⟩ : BufTy).Contents (Elt Ideal)) (x4 : (⟨S3x128x64, .f32⟩ : BufTy).Contents (Elt Ideal)) (x6 x7 x8 x9 : (⟨S128, .f32⟩ : BufTy).Contents (Elt Ideal)) (r : Fin 100000) (j : Fin 64) :
    val_main_v107 (F := Ideal) x0 x1 x2 x3 x4 x6 x7 x8 x9 (ix2 r j)
      = ∑ k : Fin 128, (val_main_v104 (F := Ideal) x0 x1 x2 x3 x6 x7 x8 x9) (ix2 r k) * x4 (ix3 (1 : Fin 3) k j) := by
  rw [val_main_v107_apply]
  refine Finset.sum_congr rfl fun k _ => ?_
  have hl : lidx_main_v107 (ix2 r j) k = ix2 r k := funext fun a => Fin.ext (by match a with | ⟨0, _⟩ => rfl | ⟨1, _⟩ => rfl)
  have hr : ridx_main_v107 (ix2 r j) k = ix2 k j := funext fun a => Fin.ext (by match a with | ⟨0, _⟩ => rfl | ⟨1, _⟩ => rfl)
  rw [hl, hr, weight2_1]

/-- Product 2 of the second layer at (r, j): row r of the node-feature array against column j of matrix 2. -/
theorem dot2_2 (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S128, .f32⟩ : BufTy).Contents (Elt Ideal)) (x4 : (⟨S3x128x64, .f32⟩ : BufTy).Contents (Elt Ideal)) (x6 x7 x8 x9 : (⟨S128, .f32⟩ : BufTy).Contents (Elt Ideal)) (r : Fin 100000) (j : Fin 64) :
    val_main_v127 (F := Ideal) x0 x1 x2 x3 x4 x6 x7 x8 x9 (ix2 r j)
      = ∑ k : Fin 128, (val_main_v124 (F := Ideal) x0 x1 x2 x3 x6 x7 x8 x9) (ix2 r k) * x4 (ix3 (2 : Fin 3) k j) := by
  rw [val_main_v127_apply]
  refine Finset.sum_congr rfl fun k _ => ?_
  have hl : lidx_main_v127 (ix2 r j) k = ix2 r k := funext fun a => Fin.ext (by match a with | ⟨0, _⟩ => rfl | ⟨1, _⟩ => rfl)
  have hr : ridx_main_v127 (ix2 r j) k = ix2 k j := funext fun a => Fin.ext (by match a with | ⟨0, _⟩ => rfl | ⟨1, _⟩ => rfl)
  rw [hl, hr, weight2_2]

/-- The bias of the second layer, spread over the nodes, at (r, j) is the vector at j. -/
theorem bias2 (x5 : (⟨S64, .f32⟩ : BufTy).Contents (Elt Ideal)) (r : Fin 100000) (j : Fin 64) :
    val_main_v130 (F := Ideal) x5 (ix2 r j) = x5 (ix1 j) := by
  rw [val_main_v130_apply, val_main_v129_apply]
  exact congrArg x5 (funext fun a => Fin.ext (by match a with | ⟨0, _⟩ => rfl))

/-- The running mean of the second layer, spread over the nodes, at (r, j) is the vector at j. -/
theorem mean2 (x12 : (⟨S64, .f32⟩ : BufTy).Contents (Elt Ideal)) (r : Fin 100000) (j : Fin 64) :
    val_main_v133 (F := Ideal) x12 (ix2 r j) = x12 (ix1 j) := by
  rw [val_main_v133_apply, val_main_v132_apply]
  exact congrArg x12 (funext fun a => Fin.ext (by match a with | ⟨0, _⟩ => rfl))

/-- The reciprocal standard deviation of the second layer, spread over the nodes, at (r, j) is the vector at j. -/
theorem rstd2 (x13 : (⟨S64, .f32⟩ : BufTy).Contents (Elt Ideal)) (r : Fin 100000) (j : Fin 64) :
    val_main_v139 (F := Ideal) x13 (ix2 r j) = val_main_v137 (F := Ideal) x13 (ix1 j) := by
  rw [val_main_v139_apply, val_main_v138_apply]
  exact congrArg (val_main_v137 (F := Ideal) x13) (funext fun a => Fin.ext (by match a with | ⟨0, _⟩ => rfl))

/-- The scale of the second layer, spread over the nodes, at (r, j) is the vector at j. -/
theorem scale2 (x10 : (⟨S64, .f32⟩ : BufTy).Contents (Elt Ideal)) (r : Fin 100000) (j : Fin 64) :
    val_main_v142 (F := Ideal) x10 (ix2 r j) = x10 (ix1 j) := by
  rw [val_main_v142_apply, val_main_v141_apply]
  exact congrArg x10 (funext fun a => Fin.ext (by match a with | ⟨0, _⟩ => rfl))

/-- The shift of the second layer, spread over the nodes, at (r, j) is the vector at j. -/
theorem shift2 (x11 : (⟨S64, .f32⟩ : BufTy).Contents (Elt Ideal)) (r : Fin 100000) (j : Fin 64) :
    val_main_v145 (F := Ideal) x11 (ix2 r j) = x11 (ix1 j) := by
  rw [val_main_v145_apply, val_main_v144_apply]
  exact congrArg x11 (funext fun a => Fin.ext (by match a with | ⟨0, _⟩ => rfl))

/-- The reference's second layer is the specification's, of the first layer's result and its two propagated
    arrays as they are: the same entry as the first layer's with 64 output features and no clamp. -/
theorem output_eq (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S128, .f32⟩ : BufTy).Contents (Elt Ideal)) (x4 : (⟨S3x128x64, .f32⟩ : BufTy).Contents (Elt Ideal)) (x5 : (⟨S64, .f32⟩ : BufTy).Contents (Elt Ideal)) (x6 x7 x8 x9 : (⟨S128, .f32⟩ : BufTy).Contents (Elt Ideal)) (x10 x11 x12 x13 : (⟨S64, .f32⟩ : BufTy).Contents (Elt Ideal)) :
    (val_main_v146 (F := Ideal) x0 x1 x2 x3 x4 x5 x6 x7 x8 x9 x10 x11 x12 x13 : S100000x64.Idx → EReal)
      = Cert.Cheb.layer2 (val_main_v88 (F := Ideal) x0 x1 x2 x3 x6 x7 x8 x9) (val_main_v104 (F := Ideal) x0 x1 x2 x3 x6 x7 x8 x9) (val_main_v124 (F := Ideal) x0 x1 x2 x3 x6 x7 x8 x9) x4 x5 x10 x11 x12 x13 := by
  funext i
  obtain ⟨r, j, rfl⟩ : ∃ (r : Fin 100000) (j : Fin 64), i = ix2 r j := ⟨i 0, i 1, eq_ix2 i⟩
  rw [val_main_v146_apply, val_main_v143_apply, val_main_v140_apply, val_main_v134_apply, val_main_v131_apply,
    val_main_v128_apply, val_main_v108_apply, dot2_0, dot2_1, dot2_2, bias2, mean2, rstd2,
    val_main_v137_apply, val_main_v136_apply, val_main_v135_apply, val_main_cst_22_apply, scale2, shift2]
  rfl

end Cert.ReferenceIdeal.Layers

end
-- ==== Proof.HostGlue.lean ====
/-
  The whole-array operations around the two layer kernels.

  Both programs build the Chebyshev terms of the scaled graph operator L with the same array operations. From the
  edge list (row 0 the sources, row 1 the destinations) they form the per-edge weight w e = -(d (src e) * d (dst e)),
  d the inverse square root of the degree. One application of L to node features h gathers the source rows of h,
  scales row e by w e and adds it into row dst e of a zero array; the third term is 2 * L t1 - t0. Gather and
  scatter-add stay closed throughout: every equation below says that two programs apply the same operations to the
  same operands, and is proved by running one side's operations symbolically and comparing the two terms. Nothing here
  depends on what a float is: every statement holds for any float instance, and is stated so.
-/
import proofs.«118105_j71159018160657_1_alg».proof.Proof.Gen.KernelIdeal.Frame
import proofs.«118105_j71159018160657_1_alg».proof.Proof.RefReadP
import Idealize.ShloMosaic.Lib.StableHlo.Run

set_option maxRecDepth 8192

noncomputable section

namespace Cert.Glue

open Idealize.ShloMosaic Idealize.ShloMosaic.TcCoe Idealize.SL.Sem Idealize.ShloMosaic.StableHlo
open Cert.KernelIdeal Cert.ReferenceIdeal.ReadP

/-! ## The graph operator over the reference's stages -/

/-- Node features (100000 nodes, 128 features each) and the edge list (sources over destinations), as arrays. -/
abbrev Feat (F : FTy → Type) : Type := (⟨ReferenceIdeal.S100000x128, .f32⟩ : BufTy).Contents (Elt F)
abbrev Edges (F : FTy → Type) : Type := (⟨ReferenceIdeal.S2x1600000, .i32⟩ : BufTy).Contents (Elt F)
abbrev Par128 (F : FTy → Type) : Type := (⟨ReferenceIdeal.S128, .f32⟩ : BufTy).Contents (Elt F)
abbrev Wts128 (F : FTy → Type) : Type := (⟨ReferenceIdeal.S3x128x128, .f32⟩ : BufTy).Contents (Elt F)

variable {F : FTy → Type} [FloatOps F]

/-- One application `L h` of the scaled graph operator: gather the source rows of `h`, scale row `e` by the weight
    of edge `e`, add it into the destination row of a zero array. -/
def prop (x1 : Edges F) (h : Feat F) : Feat F :=
  Host.scatterAdd ReferenceIdeal.scatter_S100000x128_S1600000x1_S1600000x128_1_0_0_1
    (val_main_v43 (F := F)) (val_main_v44 (F := F) x1)
    (mulf (val_main_v41 (F := F) x1)
      (Host.gather ReferenceIdeal.gather_S100000x128_S1600000x1_S1600000x128_1_0_n_n_0_1_1128 h
        (val_main_v39 (F := F) x1)))

/-- The Chebyshev recurrence `2 * L t1 - t0`. -/
def cheb2 (x1 : Edges F) (t1 t0 : Feat F) : Feat F :=
  subf (mulf (val_main_v63 (F := F)) (prop x1 t1)) t0

/-- The reference's second and third terms of each layer are `L` and the recurrence applied to the layer's input:
    its later copies of the edge weights, the wrapped sources, the destinations and the constants are the same terms. -/
theorem v45_eq (x0 : Feat F) (x1 : Edges F) : val_main_v45 (F := F) x0 x1 = prop x1 x0 := rfl

theorem v65_eq (x0 : Feat F) (x1 : Edges F) :
    val_main_v65 (F := F) x0 x1 = cheb2 x1 (val_main_v45 (F := F) x0 x1) x0 := rfl

theorem v104_eq (x0 : Feat F) (x1 : Edges F) (x2 : Wts128 F) (x3 x6 x7 x8 x9 : Par128 F) :
    val_main_v104 (F := F) x0 x1 x2 x3 x6 x7 x8 x9 = prop x1 (val_main_v88 (F := F) x0 x1 x2 x3 x6 x7 x8 x9) := rfl

theorem v124_eq (x0 : Feat F) (x1 : Edges F) (x2 : Wts128 F) (x3 x6 x7 x8 x9 : Par128 F) :
    val_main_v124 (F := F) x0 x1 x2 x3 x6 x7 x8 x9
      = cheb2 x1 (val_main_v104 (F := F) x0 x1 x2 x3 x6 x7 x8 x9) (val_main_v88 (F := F) x0 x1 x2 x3 x6 x7 x8 x9) := rfl

/-! ## What the first kernel region is entered with

The operations before the first region, run from the launch contents: the arguments are untouched, the second and
third Chebyshev terms of the input are the reference's, and the five per-feature vectors are read as one-row matrices. -/

variable (m : (ℓ : Loc nD τ sig) → Buf (Elt F) ℓ) (ρ : Dev nD → PrngReg) (c : Dev nD)

/-- The sources, the destinations and the edge weights, as the region is entered, are the reference's. -/
theorem W3_v1 : Gen.W3 m ρ c (Proc.devRef .tc main_v1) = val_main_v1 (F := F) (m ((c.tc : Thread nD τ).loc main_arg1)) := by
  dsimp only [Gen.V3, Gen.W3, Gen.W2, Gen.W1, Gen.W0]
  after_results_simp <;> rfl

theorem W3_v3 : Gen.W3 m ρ c (Proc.devRef .tc main_v3) = val_main_v3 (F := F) (m ((c.tc : Thread nD τ).loc main_arg1)) := by
  dsimp only [Gen.V3, Gen.W3, Gen.W2, Gen.W1, Gen.W0]
  after_results_simp <;> rfl

theorem W3_v29 : Gen.W3 m ρ c (Proc.devRef .tc main_v29) = val_main_v29 (F := F) (m ((c.tc : Thread nD τ).loc main_arg1)) := by
  dsimp only [Gen.V3, Gen.W3, Gen.W2, Gen.W1, Gen.W0]
  after_results_simp <;> rfl

theorem W3_arg4 : Gen.W3 m ρ c (Proc.devRef .tc main_arg4) = m ((c.tc : Thread nD τ).loc main_arg4) := by
  dsimp only [Gen.V3, Gen.W3, Gen.W2, Gen.W1, Gen.W0]
  after_results_simp <;> rfl

theorem W3_arg5 : Gen.W3 m ρ c (Proc.devRef .tc main_arg5) = m ((c.tc : Thread nD τ).loc main_arg5) := by
  dsimp only [Gen.V3, Gen.W3, Gen.W2, Gen.W1, Gen.W0]
  after_results_simp <;> rfl

theorem W3_arg10 : Gen.W3 m ρ c (Proc.devRef .tc main_arg10) = m ((c.tc : Thread nD τ).loc main_arg10) := by
  dsimp only [Gen.V3, Gen.W3, Gen.W2, Gen.W1, Gen.W0]
  after_results_simp <;> rfl

theorem W3_arg11 : Gen.W3 m ρ c (Proc.devRef .tc main_arg11) = m ((c.tc : Thread nD τ).loc main_arg11) := by
  dsimp only [Gen.V3, Gen.W3, Gen.W2, Gen.W1, Gen.W0]
  after_results_simp <;> rfl

theorem W3_arg12 : Gen.W3 m ρ c (Proc.devRef .tc main_arg12) = m ((c.tc : Thread nD τ).loc main_arg12) := by
  dsimp only [Gen.V3, Gen.W3, Gen.W2, Gen.W1, Gen.W0]
  after_results_simp <;> rfl

theorem W3_arg13 : Gen.W3 m ρ c (Proc.devRef .tc main_arg13) = m ((c.tc : Thread nD τ).loc main_arg13) := by
  dsimp only [Gen.V3, Gen.W3, Gen.W2, Gen.W1, Gen.W0]
  after_results_simp <;> rfl

theorem V3_arg0 : Gen.V3 m ρ c main_arg0 = m ((c.tc : Thread nD τ).loc main_arg0) := by
  dsimp only [Gen.V3, Gen.W3, Gen.W2, Gen.W1, Gen.W0]
  after_results_simp <;> rfl

theorem V3_arg2 : Gen.V3 m ρ c main_arg2 = m ((c.tc : Thread nD τ).loc main_arg2) := by
  dsimp only [Gen.V3, Gen.W3, Gen.W2, Gen.W1, Gen.W0]
  after_results_simp <;> rfl

theorem V3_v42 : Gen.V3 m ρ c main_v42 = val_main_v45 (F := F) (m ((c.tc : Thread nD τ).loc main_arg0)) (m ((c.tc : Thread nD τ).loc main_arg1)) := by
  dsimp only [Gen.V3, Gen.W3, Gen.W2, Gen.W1, Gen.W0]
  after_results_simp <;> rfl

theorem V3_v58 : Gen.V3 m ρ c main_v58 = val_main_v65 (F := F) (m ((c.tc : Thread nD τ).loc main_arg0)) (m ((c.tc : Thread nD τ).loc main_arg1)) := by
  dsimp only [Gen.V3, Gen.W3, Gen.W2, Gen.W1, Gen.W0]
  after_results_simp <;> rfl

theorem V3_v59 : Gen.V3 m ρ c main_v59 = shapeCast S1x128 (m ((c.tc : Thread nD τ).loc main_arg3)) Gen.shapeCasts_S128_S1x128 := by
  dsimp only [Gen.V3, Gen.W3, Gen.W2, Gen.W1, Gen.W0]
  after_results_simp <;> rfl

theorem V3_v60 : Gen.V3 m ρ c main_v60 = shapeCast S1x128 (m ((c.tc : Thread nD τ).loc main_arg6)) Gen.shapeCasts_S128_S1x128 := by
  dsimp only [Gen.V3, Gen.W3, Gen.W2, Gen.W1, Gen.W0]
  after_results_simp <;> rfl

theorem V3_v61 : Gen.V3 m ρ c main_v61 = shapeCast S1x128 (m ((c.tc : Thread nD τ).loc main_arg7)) Gen.shapeCasts_S128_S1x128 := by
  dsimp only [Gen.V3, Gen.W3, Gen.W2, Gen.W1, Gen.W0]
  after_results_simp <;> rfl

theorem V3_v62 : Gen.V3 m ρ c main_v62 = shapeCast S1x128 (m ((c.tc : Thread nD τ).loc main_arg8)) Gen.shapeCasts_S128_S1x128 := by
  dsimp only [Gen.V3, Gen.W3, Gen.W2, Gen.W1, Gen.W0]
  after_results_simp <;> rfl

theorem V3_v63 : Gen.V3 m ρ c main_v63 = shapeCast S1x128 (m ((c.tc : Thread nD τ).loc main_arg9)) Gen.shapeCasts_S128_S1x128 := by
  dsimp only [Gen.V3, Gen.W3, Gen.W2, Gen.W1, Gen.W0]
  after_results_simp <;> rfl

/-! ## What the second kernel region is entered with

The first region writes only its result array; the operations after it apply `L` and the recurrence to that result,
over the same edge weights, sources and destinations. -/

theorem V5_v64 : Gen.V5 m ρ c main_v64 = Gen.W4 m ρ c (Proc.devRef .tc main_v64) := by
  dsimp only [Gen.V5, Gen.W5]
  after_results_simp <;> rfl

theorem V5_arg4 : Gen.V5 m ρ c main_arg4 = m ((c.tc : Thread nD τ).loc main_arg4) := by
  dsimp only [Gen.V5, Gen.W5]
  after_results_simp
  rw [Gen.W4_of_ne m ρ c main_arg4 (by decide)]
  exact W3_arg4 m ρ c

theorem V5_v77 : Gen.V5 m ρ c main_v77 = prop (m ((c.tc : Thread nD τ).loc main_arg1)) (Gen.W4 m ρ c (Proc.devRef .tc main_v64)) := by
  dsimp only [Gen.V5, Gen.W5]
  after_results_simp
  rw [Gen.W4_of_ne m ρ c main_v29 (by decide), Gen.W4_of_ne m ρ c main_v1 (by decide),
    Gen.W4_of_ne m ρ c main_v3 (by decide), W3_v29 m ρ c, W3_v1 m ρ c, W3_v3 m ρ c]
  rfl

theorem V5_v93 : Gen.V5 m ρ c main_v93
    = cheb2 (m ((c.tc : Thread nD τ).loc main_arg1)) (prop (m ((c.tc : Thread nD τ).loc main_arg1)) (Gen.W4 m ρ c (Proc.devRef .tc main_v64)))
        (Gen.W4 m ρ c (Proc.devRef .tc main_v64)) := by
  dsimp only [Gen.V5, Gen.W5]
  after_results_simp
  rw [Gen.W4_of_ne m ρ c main_v29 (by decide), Gen.W4_of_ne m ρ c main_v1 (by decide),
    Gen.W4_of_ne m ρ c main_v3 (by decide), W3_v29 m ρ c, W3_v1 m ρ c, W3_v3 m ρ c]
  rfl

theorem V5_v94 : Gen.V5 m ρ c main_v94 = shapeCast S1x64 (m ((c.tc : Thread nD τ).loc main_arg5)) Gen.shapeCasts_S64_S1x64 := by
  dsimp only [Gen.V5, Gen.W5]
  after_results_simp
  rw [Gen.W4_of_ne m ρ c main_arg5 (by decide), W3_arg5 m ρ c]
  rfl

theorem V5_v95 : Gen.V5 m ρ c main_v95 = shapeCast S1x64 (m ((c.tc : Thread nD τ).loc main_arg10)) Gen.shapeCasts_S64_S1x64 := by
  dsimp only [Gen.V5, Gen.W5]
  after_results_simp
  rw [Gen.W4_of_ne m ρ c main_arg10 (by decide), W3_arg10 m ρ c]
  rfl

theorem V5_v96 : Gen.V5 m ρ c main_v96 = shapeCast S1x64 (m ((c.tc : Thread nD τ).loc main_arg11)) Gen.shapeCasts_S64_S1x64 := by
  dsimp only [Gen.V5, Gen.W5]
  after_results_simp
  rw [Gen.W4_of_ne m ρ c main_arg11 (by decide), W3_arg11 m ρ c]
  rfl

theorem V5_v97 : Gen.V5 m ρ c main_v97 = shapeCast S1x64 (m ((c.tc : Thread nD τ).loc main_arg12)) Gen.shapeCasts_S64_S1x64 := by
  dsimp only [Gen.V5, Gen.W5]
  after_results_simp
  rw [Gen.W4_of_ne m ρ c main_arg12 (by decide), W3_arg12 m ρ c]
  rfl

theorem V5_v98 : Gen.V5 m ρ c main_v98 = shapeCast S1x64 (m ((c.tc : Thread nD τ).loc main_arg13)) Gen.shapeCasts_S64_S1x64 := by
  dsimp only [Gen.V5, Gen.W5]
  after_results_simp
  rw [Gen.W4_of_ne m ρ c main_arg13 (by decide), W3_arg13 m ρ c]
  rfl

end Cert.Glue

end
-- ==== Proof.Result.lean ====
/-
  The idealized kernel program's result is the idealized reference's.

  Reading the kernel program's run boundary by boundary: the host operations before the first region compute the
  Chebyshev terms T1 = L x and T2 = 2 L T1 - x of the input features with the same gather, scale and scatter-add
  steps as the reference, and reshape the five parameter vectors to rows; the first region leaves the
  specification's first layer of those arrays, which is the reference's hidden-feature stage; the host operations
  between the regions compute the Chebyshev terms of the hidden features, again with the reference's own steps;
  the second region leaves the specification's second layer of those, which is the reference's result stage.
  No property of gather or scatter-add is used: both programs apply them to equal operands.
-/
import proofs.«118105_j71159018160657_1_alg».proof.Defs
import proofs.«118105_j71159018160657_1_alg».proof.Proof.Gen.KernelIdeal.Frame
import proofs.«118105_j71159018160657_1_alg».proof.Proof.KernelRun
import proofs.«118105_j71159018160657_1_alg».proof.Proof.Layer1Blocks
import proofs.«118105_j71159018160657_1_alg».proof.Proof.Layer2Blocks
import proofs.«118105_j71159018160657_1_alg».proof.Proof.RefReadP
import proofs.«118105_j71159018160657_1_alg».proof.Proof.RefLayers
import proofs.«118105_j71159018160657_1_alg».proof.Proof.HostGlue
import Idealize.ShloMosaic.Lib.ValueLayout

set_option maxRecDepth 16384

noncomputable section

namespace Cert.KernelIdeal.Result

open Cert.KernelIdeal
open Idealize.ShloMosaic Idealize.ShloMosaic.TcCoe Idealize.ShloMosaic.ValueIdx Idealize.SL.Sem

/-- A vector reshaped to a one-row matrix reads back, in that row, as the vector. -/
theorem row_at {n : ℕ} (x : (⟨1, ![n]⟩ : Shape).Idx → EReal) (h : (⟨1, ![n]⟩ : Shape).ShapeCasts ⟨2, ![1, n]⟩)
    (X : (⟨2, ![1, n]⟩ : Shape).Idx → EReal) (hX : X = shapeCast ⟨2, ![1, n]⟩ x h) (j : Fin n) :
    X (ix2 (0 : Fin 1) j) = x (ix1 j) := by
  subst hX; exact shapeCast_a_1a_apply x h 0 j

variable (m : (ℓ : Loc nD τ sig) → Buf (Elt Ideal) ℓ) (ρ : Dev nD → PrngReg)

/-- The first region leaves the reference's hidden-feature stage of the argument arrays. -/
theorem hidden_array (c : Dev nD) :
    Gen.W4 m ρ c (Proc.devRef .tc main_v64)
      = Cert.ReferenceIdeal.ReadP.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := by
  refine (Gen.W4_arr m ρ c 9).trans ?_
  refine (Layer1.array_eq (Gen.V3 m ρ) c (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))
    (fun j => row_at _ _ _ (Cert.Glue.V3_v59 m ρ c) j) (fun j => row_at _ _ _ (Cert.Glue.V3_v60 m ρ c) j)
    (fun j => row_at _ _ _ (Cert.Glue.V3_v61 m ρ c) j) (fun j => row_at _ _ _ (Cert.Glue.V3_v62 m ρ c) j)
    (fun j => row_at _ _ _ (Cert.Glue.V3_v63 m ρ c) j)).trans ?_
  rw [Cert.Glue.V3_arg0 m ρ c, Cert.Glue.V3_v42 m ρ c, Cert.Glue.V3_v58 m ρ c, Cert.Glue.V3_arg2 m ρ c]
  exact (Cert.ReferenceIdeal.Layers.hidden_eq _ _ _ _ _ _ _ _).symm

/-- The second region leaves the reference's result stage of the argument arrays. -/
theorem result_array (c : Dev nD) :
    Gen.W6 m ρ c (Proc.devRef .tc main_v99)
      = Cert.ReferenceIdeal.ReadP.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (Gen.W6_arr m ρ c 9).trans ?_
  refine (Layer2.array_eq (Gen.V5 m ρ) c (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13))
    (fun j => row_at _ _ _ (Cert.Glue.V5_v94 m ρ c) j) (fun j => row_at _ _ _ (Cert.Glue.V5_v95 m ρ c) j)
    (fun j => row_at _ _ _ (Cert.Glue.V5_v96 m ρ c) j) (fun j => row_at _ _ _ (Cert.Glue.V5_v97 m ρ c) j)
    (fun j => row_at _ _ _ (Cert.Glue.V5_v98 m ρ c) j)).trans ?_
  rw [Cert.Glue.V5_v64 m ρ c, Cert.Glue.V5_v77 m ρ c, Cert.Glue.V5_v93 m ρ c, Cert.Glue.V5_arg4 m ρ c, hidden_array m ρ c,
    ← Cert.Glue.v104_eq, ← Cert.Glue.v124_eq]
  exact (Cert.ReferenceIdeal.Layers.output_eq _ _ _ _ _ _ _ _ _ _ _ _ _ _).symm

end Cert.KernelIdeal.Result

end
-- ==== Proof.lean ====
/-
  The five claims: both kernel programs and the reference terminate without a fault and leave their argument arrays
  unchanged; the idealized kernel program is the printed kernel program read on the extended reals (no operation
  was rewritten, so there is nothing to state); and the idealized kernel program and the idealized reference, run
  from memories that agree on the fourteen argument arrays, end with the same result array.

  The network is two layers of a Chebyshev graph convolution of order three with batch normalisation at running
  statistics: per layer, the terms T0 = h, T1 = L h, T2 = 2 L T1 - h of the scaled graph operator L (a gather of
  source rows, a scaling by edge weights, a scatter-add into destination rows), then
  ((T0 W0 + T1 W1) + T2 W2 + b - mean) * rsqrt (var + eps) * scale + shift, the first layer clamped below at 0.
  The kernel program computes L on the host, exactly as the reference does, and the dense part of each layer in a
  pipelined region over blocks of 5000 rows; on the extended reals each block entry is the same sum the
  reference's matrix product is, with the same grouping of the three products, so the two results are equal with
  no appeal to finiteness of the inputs.
-/
import proofs.«118105_j71159018160657_1_alg».proof.Defs
import proofs.«118105_j71159018160657_1_alg».proof.Proof.Gen.Kernel
import proofs.«118105_j71159018160657_1_alg».proof.Proof.Gen.Kernel.Skeleton
import proofs.«118105_j71159018160657_1_alg».proof.Proof.Gen.Kernel.Launch
import proofs.«118105_j71159018160657_1_alg».proof.Proof.Gen.Kernel.Points
import proofs.«118105_j71159018160657_1_alg».proof.Proof.Gen.Kernel.Frame
import proofs.«118105_j71159018160657_1_alg».proof.Proof.Gen.KernelIdeal
import proofs.«118105_j71159018160657_1_alg».proof.Proof.Gen.KernelIdeal.Skeleton
import proofs.«118105_j71159018160657_1_alg».proof.Proof.Gen.KernelIdeal.Launch
import proofs.«118105_j71159018160657_1_alg».proof.Proof.Gen.KernelIdeal.Points
import proofs.«118105_j71159018160657_1_alg».proof.Proof.Gen.KernelIdeal.Frame
import proofs.«118105_j71159018160657_1_alg».proof.Proof.Gen.ReferenceIdeal
import proofs.«118105_j71159018160657_1_alg».proof.Proof.Gen.Pre_finite_inputs
import proofs.«118105_j71159018160657_1_alg».proof.Proof.RefRunP
import proofs.«118105_j71159018160657_1_alg».proof.Proof.RefReadP
import proofs.«118105_j71159018160657_1_alg».proof.Proof.KernelRun
import proofs.«118105_j71159018160657_1_alg».proof.Proof.Result
import Idealize.ShloMosaic.Adequacy
import Idealize.ShloMosaic.Init

noncomputable section

namespace Cert.Proof

open Idealize.ShloMosaic Idealize.SL.Sem Cert.Kernel

/-- The printed kernel program terminates and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation of the kernel program was rewritten for the reading on the extended reals. -/
theorem preserves : Cert.preserves_Kernel_KernelIdeal := trivial

/-- From memories agreeing on the arguments, both programs end with the reference's result stage of those arrays. -/
theorem algebraic : Cert.algebraic_KernelIdeal_ReferenceIdeal := by
  intro m ρ m' ρ' _ hagree
  refine ⟨fun c => Cert.KernelIdeal.Gen.W6 m ρ c (Proc.devRef .tc Cert.KernelIdeal.main_v99), Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v146 m' c
    = Cert.KernelIdeal.Gen.W6 m ρ c (Proc.devRef .tc Cert.KernelIdeal.main_v99)
  rw [Cert.ReferenceIdeal.ReadP.val_main_v146_eq, Cert.KernelIdeal.Result.result_array m ρ c]
  obtain ⟨a0, a1, a2, a3, a4, a5, a6, a7, a8, a9, a10, a11, a12, a13⟩ := hagree c
  rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
